-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x256 : Shape := ⟨3, ![32, 128, 256]⟩
abbrev S32x256x256 : Shape := ⟨3, ![32, 256, 256]⟩
abbrev S_ : Shape := ⟨0, ![]⟩

class Facts : Prop where
  bcast_S_S32x128x256 : S_.BroadcastsInDim S32x128x256 (![] : Fin 0 → Fin S32x128x256.rank)
  reducesTo_S32x128x256_S_d0_1_2 : S32x128x256.ReducesTo [0, 1, 2] S_
  h_S_ : 0 < S_.numel
  bcast_S_S32x256x256 : S_.BroadcastsInDim S32x256x256 (![] : Fin 0 → Fin S32x256x256.rank)
  reducesTo_S32x256x256_S_d0_1_2 : S32x256x256.ReducesTo [0, 1, 2] S_

variable [Facts]

def fn {F : FTy → Type} [FloatOps F] (main_arg0 : FVec F S32x128x256 .f32) (main_arg1 : FVec F S32x256x256 .f32) : IVec S_ 1 :=
  let main_v0 : FVec F S32x128x256 .f32 := Host.absf main_arg0
  let main_cst : FVec F S_ .f32 := constant S_ .f32 0x7F800000#32
  let main_v1 : FVec F S32x128x256 .f32 := broadcastInDim S32x128x256 ![] bcast_S_S32x128x256 main_cst
  let main_v2 : IVec S32x128x256 1 := cmpf .olt main_v0 main_v1
  let main_c : IVec S_ 1 := constantI S_ 1 1#1
  let main_v3 : IVec S_ 1 := (fun x v => Host.reduce IntOp.andi x v reducesTo_S32x128x256_S_d0_1_2 h_S_) main_v2 main_c
  let main_v4 : FVec F S32x256x256 .f32 := Host.absf main_arg1
  let main_cst_0 : FVec F S_ .f32 := constant S_ .f32 0x7F800000#32
  let main_v5 : FVec F S32x256x256 .f32 := broadcastInDim S32x256x256 ![] bcast_S_S32x256x256 main_cst_0
  let main_v6 : IVec S32x256x256 1 := cmpf .olt main_v4 main_v5
  let main_c_1 : IVec S_ 1 := constantI S_ 1 1#1
  let main_v7 : IVec S_ 1 := (fun x v => Host.reduce IntOp.andi x v reducesTo_S32x256x256_S_d0_1_2 h_S_) main_v6 main_c_1
  let main_v8 : IVec S_ 1 := andi main_v3 main_v7
  main_v8
-- ==== Kernel.lean ====
abbrev S32x128x256 : Shape := ⟨3, ![32, 128, 256]⟩
abbrev S32x256x256 : Shape := ⟨3, ![32, 256, 256]⟩
abbrev S8x128x256 : Shape := ⟨3, ![8, 128, 256]⟩
abbrev S8x256x256 : Shape := ⟨3, ![8, 256, 256]⟩
abbrev S8x256 : Shape := ⟨2, ![8, 256]⟩
abbrev S8x1x256 : Shape := ⟨3, ![8, 1, 256]⟩

abbrev nBuf : Space → Nat
  | .hbm => 4
  | .vmem => 8
  | .smem => 0
  | _ => 0

abbrev bufTy : (tb : Table) → Fin (tcTables nBuf tb) → BufTy
  | .hbm, ⟨0, _⟩ => ⟨S32x128x256, .f32⟩
  | .hbm, ⟨1, _⟩ => ⟨S32x256x256, .f32⟩
  | .hbm, ⟨2, _⟩ => ⟨S32x128x256, .f32⟩
  | .hbm, ⟨3, _⟩ => ⟨S32x256x256, .f32⟩
  | .local _ .vmem, ⟨0, _⟩ => ⟨S8x128x256, .f32⟩
  | .local _ .vmem, ⟨1, _⟩ => ⟨S8x128x256, .f32⟩
  | .local _ .vmem, ⟨2, _⟩ => ⟨S8x256x256, .f32⟩
  | .local _ .vmem, ⟨3, _⟩ => ⟨S8x256x256, .f32⟩
  | .local _ .vmem, ⟨4, _⟩ => ⟨S8x128x256, .f32⟩
  | .local _ .vmem, ⟨5, _⟩ => ⟨S8x128x256, .f32⟩
  | .local _ .vmem, ⟨6, _⟩ => ⟨S8x256x256, .f32⟩
  | .local _ .vmem, ⟨7, _⟩ => ⟨S8x256x256, .f32⟩
  | _, _ => ⟨S32x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8x128x256_S8x128x256_0_0_0 : ∀ a, (![0, 0, 0] : Fin 3 → Nat) a + S8x128x256.size a ≤ S8x128x256.size a
  h_S8x128x256 : 0 < S8x128x256.numel
  inb_S8x256x256_S8x256x256_0_0_0 : ∀ a, (![0, 0, 0] : Fin 3 → Nat) a + S8x256x256.size a ≤ S8x256x256.size a
  h_S8x256x256 : 0 < S8x256x256.numel
  reduces_S8x256x256_S8x256 : S8x256x256.Reduces [1] S8x256
  shapeCasts_S8x256_S8x1x256 : S8x256.ShapeCasts S8x1x256
  reduces_S8x128x256_S8x256 : S8x128x256.Reduces [1] S8x256
  broadcasts_S8x1x256_S8x128x256 : S8x1x256.Broadcasts S8x128x256
  broadcasts_S8x1x256_S8x256x256 : S8x1x256.Broadcasts S8x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x256.size a ≤ S32x128x256.size a
  hwx0_0 : ∀ i : grid0.Coords, EltTy.bits .f32 = 32 ∨ (Rect.block (s := S32x128x256) S8x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S32x256x256.size a
  hwx0_1 : ∀ i : grid0.Coords, EltTy.bits .f32 = 32 ∨ (Rect.block (s := S32x256x256) S8x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x256.size a ≤ S32x128x256.size a
  hwx0_2 : ∀ i : grid0.Coords, EltTy.bits .f32 = 32 ∨ (Rect.block (s := S32x128x256) S8x128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x256.size a ≤ S32x256x256.size a
  hwx0_3 : ∀ i : grid0.Coords, EltTy.bits .f32 = 32 ∨ (Rect.block (s := S32x256x256) S8x256x256.size (cc0_transform_3 i) (hinb0_3 i)).WholeWords (EltTy.packing .f32)

variable [Facts₀]

abbrev win0_0 : Pipeline.Window sig grid0 :=
  Pipeline.Window.ofSpec (Memref.whole main_arg0) S8x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S8x128x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S8x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x128x256 : Shape := ⟨3, ![32, 128, 256]⟩
abbrev S32x256x256 : Shape := ⟨3, ![32, 256, 256]⟩
abbrev S_ : Shape := ⟨0, ![]⟩
abbrev S32x256 : Shape := ⟨2, ![32, 256]⟩
abbrev S32x1x256 : Shape := ⟨3, ![32, 1, 256]⟩

abbrev nBuf : Space → Nat
  | .hbm => 12
  | .vmem => 0
  | .smem => 0
  | _ => 0

abbrev bufTy : (tb : Table) → Fin (tcTables nBuf tb) → BufTy
  | .hbm, ⟨0, _⟩ => ⟨S32x128x256, .f32⟩
  | .hbm, ⟨1, _⟩ => ⟨S32x256x256, .f32⟩
  | .hbm, ⟨2, _⟩ => ⟨S_, .f32⟩
  | .hbm, ⟨3, _⟩ => ⟨S32x256, .f32⟩
  | .hbm, ⟨4, _⟩ => ⟨S32x1x256, .f32⟩
  | .hbm, ⟨5, _⟩ => ⟨S_, .f32⟩
  | .hbm, ⟨6, _⟩ => ⟨S32x256, .f32⟩
  | .hbm, ⟨7, _⟩ => ⟨S32x1x256, .f32⟩
  | .hbm, ⟨8, _⟩ => ⟨S32x128x256, .f32⟩
  | .hbm, ⟨9, _⟩ => ⟨S32x128x256, .f32⟩
  | .hbm, ⟨10, _⟩ => ⟨S32x256x256, .f32⟩
  | .hbm, ⟨11, _⟩ => ⟨S32x256x256, .f32⟩
  | _, _ => ⟨S32x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  reducesTo_S32x256x256_S32x256_d1 : S32x256x256.ReducesTo [1] S32x256
  h_S_ : 0 < S_.numel
  bcast_S32x256_S32x1x256_0_2 : S32x256.BroadcastsInDim S32x1x256 (![0, 2] : Fin 2 → Fin S32x1x256.rank)
  reducesTo_S32x128x256_S32x256_d1 : S32x128x256.ReducesTo [1] S32x256
  bcast_S32x1x256_S32x128x256_0_1_2 : S32x1x256.BroadcastsInDim S32x128x256 (![0, 1, 2] : Fin 3 → Fin S32x128x256.rank)
  bcast_S32x1x256_S32x256x256_0_1_2 : S32x1x256.BroadcastsInDim S32x256x256 (![0, 1, 2] : Fin 3 → Fin S32x256x256.rank)

variable [Facts₀]

class Facts : Prop extends Facts₀ where

variable [Facts]
-- ==== Proof.Spec.lean ====
/-
  The two results as functions of the two argument arrays, on the extended reals.

  With `u : [32, 128, 256]` (batch, user, feature) and `g : [32, 256, 256]` (batch, image, feature):

    userOut  u g (b, p, d) = u (b, p, d) · Σ_{k < 256} g (b, k, d)     -- each user row times the column sums of the images
    imageOut u g (b, q, d) = g (b, q, d) · Σ_{k < 128} u (b, k, d)     -- each image row times the column sums of the users

  Both programs compute exactly these: a sum along the middle axis, re-laid as a [·, 1, 256] row, spread back
  over the middle axis, and multiplied into the other array. Nothing beyond the zero word being the real `0`
  and `0 + x = x` joins the two sides, so no finiteness is used.
-/
import Idealize.ShloMosaic.PureOps.Ideal
import Idealize.ShloMosaic.Lib.ValueIdx

noncomputable section

open scoped BigOperators

namespace Cert.AxisSums

open Idealize.ShloMosaic Idealize.ShloMosaic.ValueIdx

/-- The shape of the user array, [32, 128, 256]. -/
abbrev SU : Shape := ⟨3, ![32, 128, 256]⟩
/-- The shape of the image array, [32, 256, 256]. -/
abbrev SI : Shape := ⟨3, ![32, 256, 256]⟩

/-- Entry (b, p, d) of the user array times the sum over the image axis of the image array's column (b, ·, d). -/
def userOut (u : SU.Idx → EReal) (g : SI.Idx → EReal) : SU.Idx → EReal :=
  fun i => u i * ∑ k : Fin 256, g (ix3 (n0 := 32) (n1 := 256) (n2 := 256) (i 0) k (i 2))

/-- Entry (b, q, d) of the image array times the sum over the user axis of the user array's column (b, ·, d). -/
def imageOut (u : SU.Idx → EReal) (g : SI.Idx → EReal) : SI.Idx → EReal :=
  fun i => g i * ∑ k : Fin 128, u (ix3 (n0 := 32) (n1 := 128) (n2 := 256) (i 0) k (i 2))

end Cert.AxisSums

end
-- ==== Proof.RefSide.lean ====
/-
  The reference's two results are `userOut` and `imageOut` of its arguments.

  Read one operation at a time: the product at (b, p, d) takes the second factor from the spread of a [32, 1, 256]
  row, that row from the [32, 256] table of sums at (b, d), and the table's entry is the initial zero plus the sum
  over the reduced axis of the array at (b, k, d).
-/
import proofs.«106975_j65609920413984_2_alg».proof.Proof.Gen.ReferenceIdeal.Read
import proofs.«106975_j65609920413984_2_alg».proof.Proof.Spec

noncomputable section

open scoped BigOperators

namespace Cert.AxisSums.Ref

open Cert.ReferenceIdeal Cert.ReferenceIdeal.Read Idealize.ShloMosaic Idealize.ShloMosaic.ValueIdx Cert.AxisSums

/-- The first result: every user entry times its batch's and feature's sum of image entries. -/
theorem user_eq (u : SU.Idx → EReal) (g : SI.Idx → EReal) : val_main_v5 (F := Ideal) u g = userOut u g := by
  funext i
  rw [val_main_v5_apply, val_main_v4_apply, val_main_v1_apply, val_main_v0_apply, val_main_cst_apply]
  unfold userOut
  simp only [Ideal.mulf_def, Ideal.ofBits_def, Ideal.ofBits_zero_f32, zero_add]
  refine congrArg (u i * ·) (Finset.sum_congr rfl fun k _ => congrArg g ?_)
  funext a; apply Fin.ext
  match a with | ⟨0, _⟩ => rfl | ⟨1, _⟩ => rfl | ⟨2, _⟩ => rfl

/-- The second result: every image entry times its batch's and feature's sum of user entries. -/
theorem image_eq (u : SU.Idx → EReal) (g : SI.Idx → EReal) : val_main_v7 (F := Ideal) u g = imageOut u g := by
  funext i
  rw [val_main_v7_apply, val_main_v6_apply, val_main_v3_apply, val_main_v2_apply, val_main_cst_0_apply]
  unfold imageOut
  simp only [Ideal.mulf_def, Ideal.ofBits_def, Ideal.ofBits_zero_f32, zero_add]
  refine congrArg (g i * ·) (Finset.sum_congr rfl fun k _ => congrArg u ?_)
  funext a; apply Fin.ext
  match a with | ⟨0, _⟩ => rfl | ⟨1, _⟩ => rfl | ⟨2, _⟩ => rfl

end Cert.AxisSums.Ref

end
-- ==== Proof.KerBlock.lean ====
/-
  What the kernel body leaves in its two output blocks, entry by entry.

  The body loads a user block `P0 : [8, 128, 256]` and an image block `P1 : [8, 256, 256]`, sums each along its middle
  axis, and multiplies the other block by the spread of that row of sums. So entry (b, p, d) of the first output block
  is `P0 (b, p, d) · Σ_k P1 (b, k, d)`, and entry (b, q, d) of the second is `P1 (b, q, d) · Σ_k P0 (b, k, d)`. The
  lane sum at the extended reals is a plain finite sum over the dropped coordinate.
-/
import proofs.«106975_j65609920413984_2_alg».proof.Proof.Gen.KernelIdeal.Value
import Idealize.ShloMosaic.PureOps.Ideal.Laws
import Idealize.ShloMosaic.Lib.ValueIdx

noncomputable section

open scoped BigOperators

namespace Cert.AxisSums.Ker

open Cert.KernelIdeal Cert.KernelIdeal.Gen Idealize.ShloMosaic Idealize.ShloMosaic.ValueIdx

/-- The offset of every access of the body is the origin of its block. -/
theorem origin : (![0, 0, 0] : Fin 3 → Nat) = fun _ => 0 := funext fun a => by fin_cases a <;> rfl

/-- The first output block: the user block times the image block's sums along the image axis. -/
theorem userBlock (P0 : Vec Ideal S8x128x256 .f32) (P1 : Vec Ideal S8x256x256 .f32) (y : S8x128x256.Idx) :
    out0_2 (F := Ideal) P0 P1 y
      = P0 y * ∑ k : Fin 256, P1 (ix3 (n0 := 8) (n1 := 256) (n2 := 256) (y 0) k (y 2)) := by
  unfold out0_2
  simp only [View.ld_unit_zero (S := S8x128x256) origin, View.ld_unit_zero (S := S8x256x256) origin]
  refine (Value.canon2_eq P0 P1 y).trans ?_
  show P0 (Value.ix2_0 y) * multiReduction (F := Ideal) .add [1] S8x256 P1 0x00000000#32 reduces_S8x256x256_S8x256 (.inl rfl) rfl (Value.ix2_1 y) = _
  have e0 : Value.ix2_0 y = y := by
    funext a; apply Fin.ext
    match a with | ⟨0, _⟩ => rfl | ⟨1, _⟩ => rfl | ⟨2, _⟩ => rfl
  rw [e0]
  refine congrArg (P0 y * ·) ?_
  refine (Ideal.multiReduction_add_single P1 0x00000000#32 reduces_S8x256x256_S8x256 (.inl rfl) rfl (Value.ix2_1 y)).trans ?_
  refine Finset.sum_congr rfl fun k _ => congrArg P1 ?_
  funext a; apply Fin.ext
  match a with | ⟨0, _⟩ => rfl | ⟨1, _⟩ => rfl | ⟨2, _⟩ => rfl

/-- The second output block: the image block times the user block's sums along the user axis. -/
theorem imageBlock (P0 : Vec Ideal S8x128x256 .f32) (P1 : Vec Ideal S8x256x256 .f32) (y : S8x256x256.Idx) :
    out0_3 (F := Ideal) P0 P1 y
      = P1 y * ∑ k : Fin 128, P0 (ix3 (n0 := 8) (n1 := 128) (n2 := 256) (y 0) k (y 2)) := by
  unfold out0_3
  simp only [View.ld_unit_zero (S := S8x128x256) origin, View.ld_unit_zero (S := S8x256x256) origin]
  refine (Value.canon3_eq P1 P0 y).trans ?_
  show P1 (Value.ix3_0 y) * multiReduction (F := Ideal) .add [1] S8x256 P0 0x00000000#32 reduces_S8x128x256_S8x256 (.inl rfl) rfl (Value.ix3_1 y) = _
  have e0 : Value.ix3_0 y = y := by
    funext a; apply Fin.ext
    match a with | ⟨0, _⟩ => rfl | ⟨1, _⟩ => rfl | ⟨2, _⟩ => rfl
  rw [e0]
  refine congrArg (P1 y * ·) ?_
  refine (Ideal.multiReduction_add_single P0 0x00000000#32 reduces_S8x128x256_S8x256 (.inl rfl) rfl (Value.ix3_1 y)).trans ?_
  refine Finset.sum_congr rfl fun k _ => congrArg P0 ?_
  funext a; apply Fin.ext
  match a with | ⟨0, _⟩ => rfl | ⟨1, _⟩ => rfl | ⟨2, _⟩ => rfl

end Cert.AxisSums.Ker

end
-- ==== Proof.KerArray.lean ====
/-
  From blocks to whole arrays: after the run the first result array is `userOut` and the second `imageOut` of the
  argument arrays.

  The grid has four points; point `t` stages batches `8t … 8t+7` of both arguments and of both results, whole along the
  other two axes. So the block a point writes back is the restriction of `userOut` (of `imageOut`) to those batches: an
  entry of the block at (b, p, d) sits at (8t + b, p, d) of the array, and the sums it uses run over the whole middle axis
  of the same batch and feature. Every array index lies in the block of point `batch / 8`, so the blocks cover the array.
-/
import proofs.«106975_j65609920413984_2_alg».proof.Proof.KerBlock
import proofs.«106975_j65609920413984_2_alg».proof.Proof.Spec

noncomputable section

open scoped BigOperators

namespace Cert.AxisSums.Ker

open Cert.KernelIdeal Cert.KernelIdeal.Gen Idealize.ShloMosaic Idealize.ShloMosaic.TcCoe Idealize.SL.Sem
open Idealize.ShloMosaic.ValueIdx Cert.AxisSums
open Idealize.ShloMosaic.Pipeline (Dat)

variable (m : (ℓ : Loc nD τ sig) → Buf (Elt Ideal) ℓ) (ρ : Dev nD → PrngReg)

/-- All four windows move along the batch axis only, by the point's number, and stay at the origin of the other two. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- Each of the four groups of eight batches is some point's. -/
theorem idx_onto : ∀ q : Fin 4, ∃ t : Fin cfg0.N, t.val = q.val :=
  (by decide +kernel : ∀ q : Fin 4, ∃ t : Fin grid0.N, t.val = q.val)

/-! ## The first result -/

/-- What point `t` writes back to the first result is block `t` of `userOut` of the arguments. -/
theorem userFlushed (c : Dev nD) (t : Fin cfg0.N) :
    (dats m 0 c).flushed 2 t
      = ((cfg0.win 2).blk t).view.read (Elt Ideal) (userOut (V m c main_arg0) (V m c main_arg1)) := by
  rw [Value.flushed2]
  obtain ⟨a0, a1, a2, b0, b1, b2, c0, c1, c2, -, -, -⟩ := idx_facts t
  funext j
  show out0_2 (iblk m c 0 t) (iblk m c 1 t) j
    = userOut (V m c main_arg0) (V m c main_arg1) (((cfg0.win 2).blk t).view.emb j)
  refine (userBlock (iblk m c 0 t) (iblk m c 1 t) j).trans ?_
  unfold userOut
  suffices key : ∀ (A0 : S32x128x256.Idx → EReal) (A1 : S32x256x256.Idx → EReal),
      A0 (((cfg0.win 0).blk t).view.emb j)
        * ∑ k : Fin 256, A1 (((cfg0.win 1).blk t).view.emb (ix3 (n0 := 8) (n1 := 256) (n2 := 256) (j 0) k (j 2)))
      = A0 (((cfg0.win 2).blk t).view.emb j)
        * ∑ k : Fin 256, A1 (ix3 (n0 := 32) (n1 := 256) (n2 := 256) ((((cfg0.win 2).blk t).view.emb j) 0) k ((((cfg0.win 2).blk t).view.emb j) 2))
    from key (V m c main_arg0) (V m c main_arg1)
  intro A0 A1
  have h0 : ((cfg0.win 0).blk t).view.emb j = ((cfg0.win 2).blk t).view.emb j := by
    funext a; apply Fin.ext
    match a with
    | ⟨0, _⟩ => show win0_0.index t (0 : Fin 3) * 8 + 1 * (j 0).val = win0_2.index t (0 : Fin 3) * 8 + 1 * (j 0).val; omega
    | ⟨1, _⟩ => show win0_0.index t (1 : Fin 3) * 128 + 1 * (j 1).val = win0_2.index t (1 : Fin 3) * 128 + 1 * (j 1).val; omega
    | ⟨2, _⟩ => show win0_0.index t (2 : Fin 3) * 256 + 1 * (j 2).val = win0_2.index t (2 : Fin 3) * 256 + 1 * (j 2).val; omega
  rw [h0]
  refine congrArg (A0 (((cfg0.win 2).blk t).view.emb j) * ·) ?_
  refine Finset.sum_congr rfl fun k _ => congrArg A1 ?_
  funext a; apply Fin.ext
  match a with
  | ⟨0, _⟩ => show win0_1.index t (0 : Fin 3) * 8 + 1 * (j 0).val = win0_2.index t (0 : Fin 3) * 8 + 1 * (j 0).val; omega
  | ⟨1, _⟩ => show win0_1.index t (1 : Fin 3) * 256 + 1 * k.val = k.val; omega
  | ⟨2, _⟩ => show win0_1.index t (2 : Fin 3) * 256 + 1 * (j 2).val = win0_2.index t (2 : Fin 3) * 256 + 1 * (j 2).val; omega

/-- An index of the first result is in point `t`'s block iff each coordinate is in the block's range on its axis. -/
theorem mem_userBlk (t : Fin cfg0.N) (i : S32x128x256.Idx) :
    i ∈ ((cfg0.win 2).blk t).view.set ↔ ∀ a : Fin 3, win0_2.index t a * S8x128x256.size a ≤ (i a).val
      ∧ (i a).val < win0_2.index t a * S8x128x256.size a + S8x128x256.size a := by
  show i ∈ ((View.whole main_v0_0).slice (win0_2.rect t)).set ↔ _
  rw [View.set_slice_whole, Rect.mem_set_unit]
  exact Iff.rfl

/-- Every index of the first result is in the block of the point numbered by its batch divided by eight. -/
theorem userCover (i : S32x128x256.Idx) :
    ∃ t : Fin cfg0.N, (cfg0.win 2).flush t = true ∧ i ∈ ((cfg0.win 2).blk t).view.set := by
  have hi0 : (i 0).val < 32 := (i 0).isLt
  have hi1 : (i 1).val < 128 := (i 1).isLt
  have hi2 : (i 2).val < 256 := (i 2).isLt
  obtain ⟨t, ht⟩ := idx_onto ⟨(i 0).val / 8, by omega⟩
  have ht' : t.val = (i 0).val / 8 := ht
  obtain ⟨-, -, -, -, -, -, c0, c1, c2, -, -, -⟩ := idx_facts t
  refine ⟨t, flush0_2 t, ?_⟩
  rw [mem_userBlk]
  intro a
  match a with
  | ⟨0, _⟩ => show win0_2.index t (0 : Fin 3) * 8 ≤ (i 0).val ∧ (i 0).val < win0_2.index t (0 : Fin 3) * 8 + 8; omega
  | ⟨1, _⟩ => show win0_2.index t (1 : Fin 3) * 128 ≤ (i 1).val ∧ (i 1).val < win0_2.index t (1 : Fin 3) * 128 + 128; omega
  | ⟨2, _⟩ => show win0_2.index t (2 : Fin 3) * 256 ≤ (i 2).val ∧ (i 2).val < win0_2.index t (2 : Fin 3) * 256 + 256; omega

/-- The first result array after the run. -/
theorem userFinal (c : Dev nD) :
    (dats m 0 c).arrAt 2 cfg0.N
      = userOut (m ((c : Thread nD τ).loc main_arg0)) (m ((c : Thread nD τ).loc main_arg1)) :=
  (dats m 0 c).arrAt_eq_of_cover 2 (userOut (V m c main_arg0) (V m c main_arg1)) (fun t _ => userFlushed m c t) userCover

/-! ## The second result -/

/-- What point `t` writes back to the second result is block `t` of `imageOut` of the arguments. -/
theorem imageFlushed (c : Dev nD) (t : Fin cfg0.N) :
    (dats m 0 c).flushed 3 t
      = ((cfg0.win 3).blk t).view.read (Elt Ideal) (imageOut (V m c main_arg0) (V m c main_arg1)) := by
  rw [Value.flushed3]
  obtain ⟨a0, a1, a2, b0, b1, b2, -, -, -, d0, d1, d2⟩ := idx_facts t
  funext j
  show out0_3 (iblk m c 0 t) (iblk m c 1 t) j
    = imageOut (V m c main_arg0) (V m c main_arg1) (((cfg0.win 3).blk t).view.emb j)
  refine (imageBlock (iblk m c 0 t) (iblk m c 1 t) j).trans ?_
  unfold imageOut
  suffices key : ∀ (A0 : S32x128x256.Idx → EReal) (A1 : S32x256x256.Idx → EReal),
      A1 (((cfg0.win 1).blk t).view.emb j)
        * ∑ k : Fin 128, A0 (((cfg0.win 0).blk t).view.emb (ix3 (n0 := 8) (n1 := 128) (n2 := 256) (j 0) k (j 2)))
      = A1 (((cfg0.win 3).blk t).view.emb j)
        * ∑ k : Fin 128, A0 (ix3 (n0 := 32) (n1 := 128) (n2 := 256) ((((cfg0.win 3).blk t).view.emb j) 0) k ((((cfg0.win 3).blk t).view.emb j) 2))
    from key (V m c main_arg0) (V m c main_arg1)
  intro A0 A1
  have h1 : ((cfg0.win 1).blk t).view.emb j = ((cfg0.win 3).blk t).view.emb j := by
    funext a; apply Fin.ext
    match a with
    | ⟨0, _⟩ => show win0_1.index t (0 : Fin 3) * 8 + 1 * (j 0).val = win0_3.index t (0 : Fin 3) * 8 + 1 * (j 0).val; omega
    | ⟨1, _⟩ => show win0_1.index t (1 : Fin 3) * 256 + 1 * (j 1).val = win0_3.index t (1 : Fin 3) * 256 + 1 * (j 1).val; omega
    | ⟨2, _⟩ => show win0_1.index t (2 : Fin 3) * 256 + 1 * (j 2).val = win0_3.index t (2 : Fin 3) * 256 + 1 * (j 2).val; omega
  rw [h1]
  refine congrArg (A1 (((cfg0.win 3).blk t).view.emb j) * ·) ?_
  refine Finset.sum_congr rfl fun k _ => congrArg A0 ?_
  funext a; apply Fin.ext
  match a with
  | ⟨0, _⟩ => show win0_0.index t (0 : Fin 3) * 8 + 1 * (j 0).val = win0_3.index t (0 : Fin 3) * 8 + 1 * (j 0).val; omega
  | ⟨1, _⟩ => show win0_0.index t (1 : Fin 3) * 128 + 1 * k.val = k.val; omega
  | ⟨2, _⟩ => show win0_0.index t (2 : Fin 3) * 256 + 1 * (j 2).val = win0_3.index t (2 : Fin 3) * 256 + 1 * (j 2).val; omega

/-- An index of the second result is in point `t`'s block iff each coordinate is in the block's range on its axis. -/
theorem mem_imageBlk (t : Fin cfg0.N) (i : S32x256x256.Idx) :
    i ∈ ((cfg0.win 3).blk t).view.set ↔ ∀ a : Fin 3, win0_3.index t a * S8x256x256.size a ≤ (i a).val
      ∧ (i a).val < win0_3.index t a * S8x256x256.size a + S8x256x256.size a := by
  show i ∈ ((View.whole main_v0_1).slice (win0_3.rect t)).set ↔ _
  rw [View.set_slice_whole, Rect.mem_set_unit]
  exact Iff.rfl

/-- Every index of the second result is in the block of the point numbered by its batch divided by eight. -/
theorem imageCover (i : S32x256x256.Idx) :
    ∃ t : Fin cfg0.N, (cfg0.win 3).flush t = true ∧ i ∈ ((cfg0.win 3).blk t).view.set := by
  have hi0 : (i 0).val < 32 := (i 0).isLt
  have hi1 : (i 1).val < 256 := (i 1).isLt
  have hi2 : (i 2).val < 256 := (i 2).isLt
  obtain ⟨t, ht⟩ := idx_onto ⟨(i 0).val / 8, by omega⟩
  have ht' : t.val = (i 0).val / 8 := ht
  obtain ⟨-, -, -, -, -, -, -, -, -, d0, d1, d2⟩ := idx_facts t
  refine ⟨t, flush0_3 t, ?_⟩
  rw [mem_imageBlk]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 256 ≤ (i 1).val ∧ (i 1).val < win0_3.index t (1 : Fin 3) * 256 + 256; omega
  | ⟨2, _⟩ => show win0_3.index t (2 : Fin 3) * 256 ≤ (i 2).val ∧ (i 2).val < win0_3.index t (2 : Fin 3) * 256 + 256; omega

/-- The second result array after the run. -/
theorem imageFinal (c : Dev nD) :
    (dats m 0 c).arrAt 3 cfg0.N
      = imageOut (m ((c : Thread nD τ).loc main_arg0)) (m ((c : Thread nD τ).loc main_arg1)) :=
  (dats m 0 c).arrAt_eq_of_cover 3 (imageOut (V m c main_arg0) (V m c main_arg1)) (fun t _ => imageFlushed m c t) imageCover

/-! ## The run -/

/-- Every weakly fair execution of the idealized kernel ends with its two results at `userOut` and `imageOut` of the
    arguments as launched, and the arguments unchanged. -/
theorem run : θ_run defs (onTc (τ := τ) (main (F := Ideal))) ⟨m, fun _ => 0, ρ⟩ fun r => ∀ c : Dev nD,
      r.2.mem ((c : Thread nD τ).loc main_v0_0)
        = userOut (m ((c : Thread nD τ).loc main_arg0)) (m ((c : Thread nD τ).loc main_arg1))
      ∧ r.2.mem ((c : Thread nD τ).loc main_v0_1)
        = imageOut (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (userFinal m c), (h c).2.1.trans (imageFinal m c), (h c).2.2⟩)
    (Value.run_blocks m ρ)

end Cert.AxisSums.Ker

end
-- ==== Proof.lean ====
/-
  The certificate of a pair of axis sums multiplied back into the arrays.

  With `u : [32, 128, 256]` and `g : [32, 256, 256]`, both programs return
    `u (b, p, d) · Σ_k g (b, k, d)`   and   `g (b, q, d) · Σ_k u (b, k, d)`
  (`userOut`, `imageOut` of Proof/Spec.lean). The kernel does it eight batches at a time on a grid of four points, each
  point summing its blocks along the middle axis and writing back the two products (Proof/KerBlock.lean: what one point
  leaves; Proof/KerArray.lean: the four blocks are the whole arrays); the reference does it on the whole arrays with a host
  reduction from zero (Proof/RefSide.lean). At the extended reals a lane sum and a host sum from zero over the same axis
  are the same finite sum, so the results agree entry by entry, for any extended-real inputs.
  The three frames are the generated frame runs (the reference's is its generated run with the results dropped), and the
  idealization rewrote nothing, so the idealized kernel is the kernel's own text.
-/
import proofs.«106975_j65609920413984_2_alg».proof.Defs
import proofs.«106975_j65609920413984_2_alg».proof.Proof.Gen.Kernel
import proofs.«106975_j65609920413984_2_alg».proof.Proof.Gen.Kernel.Skeleton
import proofs.«106975_j65609920413984_2_alg».proof.Proof.Gen.Kernel.Launch
import proofs.«106975_j65609920413984_2_alg».proof.Proof.Gen.Kernel.Points
import proofs.«106975_j65609920413984_2_alg».proof.Proof.Gen.Kernel.Frame
import proofs.«106975_j65609920413984_2_alg».proof.Proof.Gen.KernelIdeal
import proofs.«106975_j65609920413984_2_alg».proof.Proof.Gen.KernelIdeal.Skeleton
import proofs.«106975_j65609920413984_2_alg».proof.Proof.Gen.KernelIdeal.Launch
import proofs.«106975_j65609920413984_2_alg».proof.Proof.Gen.KernelIdeal.Points
import proofs.«106975_j65609920413984_2_alg».proof.Proof.Gen.KernelIdeal.Frame
import proofs.«106975_j65609920413984_2_alg».proof.Proof.Gen.ReferenceIdeal
import proofs.«106975_j65609920413984_2_alg».proof.Proof.Gen.Pre_finite_inputs
import proofs.«106975_j65609920413984_2_alg».proof.Proof.Gen.KernelIdeal.Value
import proofs.«106975_j65609920413984_2_alg».proof.Proof.Gen.ReferenceIdeal.Run
import proofs.«106975_j65609920413984_2_alg».proof.Proof.Gen.ReferenceIdeal.Read
import proofs.«106975_j65609920413984_2_alg».proof.Proof.Spec
import proofs.«106975_j65609920413984_2_alg».proof.Proof.RefSide
import proofs.«106975_j65609920413984_2_alg».proof.Proof.KerBlock
import proofs.«106975_j65609920413984_2_alg».proof.Proof.KerArray
import Idealize.ShloMosaic.Adequacy
import Idealize.ShloMosaic.Init

noncomputable section

namespace Cert.Proof

open Idealize.ShloMosaic Idealize.ShloMosaic.TcCoe Idealize.SL.Sem

/-- The kernel as printed runs, faults nowhere, and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both idealized programs end with `userOut` and `imageOut` of them. -/
theorem algebraic : Cert.algebraic_KernelIdeal_ReferenceIdeal := by
  intro m ρ m' ρ' _ hagree
  refine ⟨fun c => Cert.AxisSums.userOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => Cert.AxisSums.imageOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.AxisSums.Ker.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v5_eq, Cert.AxisSums.Ref.user_eq, (hagree c).1, (hagree c).2]
  · rw [(h c).2.1, Cert.ReferenceIdeal.Read.val_main_v7_eq, Cert.AxisSums.Ref.image_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
